-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x6 : Shape := ⟨2, ![4194304, 6]⟩
abbrev S_ : Shape := ⟨0, ![]⟩

class Facts : Prop where
  bcast_S_S4194304x6 : S_.BroadcastsInDim S4194304x6 (![] : Fin 0 → Fin S4194304x6.rank)
  reducesTo_S4194304x6_S_d0_1 : S4194304x6.ReducesTo [0, 1] S_
  h_S_ : 0 < S_.numel

variable [Facts]

def fn {F : FTy → Type} [FloatOps F] (main_arg0 : FVec F S4194304x6 .f32) : IVec S_ 1 :=
  let main_v0 : FVec F S4194304x6 .f32 := Host.absf main_arg0
  let main_cst : FVec F S_ .f32 := constant S_ .f32 0x7F800000#32
  let main_v1 : FVec F S4194304x6 .f32 := broadcastInDim S4194304x6 ![] bcast_S_S4194304x6 main_cst
  let main_v2 : IVec S4194304x6 1 := cmpf .olt main_v0 main_v1
  let main_c : IVec S_ 1 := constantI S_ 1 1#1
  let main_v3 : IVec S_ 1 := (fun x v => Host.reduce IntOp.andi x v reducesTo_S4194304x6_S_d0_1 h_S_) main_v2 main_c
  main_v3
-- ==== Kernel.lean ====
abbrev S4194304x6 : Shape := ⟨2, ![4194304, 6]⟩
abbrev S4194304x12 : Shape := ⟨2, ![4194304, 12]⟩
abbrev S1024x6 : Shape := ⟨2, ![1024, 6]⟩
abbrev S1024x12 : Shape := ⟨2, ![1024, 12]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S4194304x6, .f32⟩
  | .hbm, ⟨1, _⟩ => ⟨S4194304x12, .f32⟩
  | .local _ .vmem, ⟨0, _⟩ => ⟨S1024x6, .f32⟩
  | .local _ .vmem, ⟨1, _⟩ => ⟨S1024x6, .f32⟩
  | .local _ .vmem, ⟨2, _⟩ => ⟨S1024x12, .f32⟩
  | .local _ .vmem, ⟨3, _⟩ => ⟨S1024x12, .f32⟩
  | _, _ => ⟨S4194304x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x6_S1024x1_0_0 : ∀ a, (![0, 0] : Fin 2 → Nat) a + S1024x1.size a ≤ S1024x6.size a
  h_S1024x1 : 0 < S1024x1.numel
  inb_S1024x6_S1024x1_0_1 : ∀ a, (![0, 1] : Fin 2 → Nat) a + S1024x1.size a ≤ S1024x6.size a
  inb_S1024x6_S1024x1_0_2 : ∀ a, (![0, 2] : Fin 2 → Nat) a + S1024x1.size a ≤ S1024x6.size a
  inb_S1024x6_S1024x1_0_3 : ∀ a, (![0, 3] : Fin 2 → Nat) a + S1024x1.size a ≤ S1024x6.size a
  inb_S1024x6_S1024x1_0_4 : ∀ a, (![0, 4] : Fin 2 → Nat) a + S1024x1.size a ≤ S1024x6.size a
  inb_S1024x6_S1024x1_0_5 : ∀ a, (![0, 5] : Fin 2 → Nat) a + S1024x1.size a ≤ S1024x6.size a
  concatenates_S1024x1_S1024x1_S1024x1_S1024x1_S1024x1_S1024x1_S1024x1_S1024x1_S1024x1_S1024x1_S1024x1_S1024x1_S1024x12_d1 : Shape.Concatenates [S1024x1, S1024x1, S1024x1, S1024x1, S1024x1, S1024x1, S1024x1, S1024x1, S1024x1, S1024x1, S1024x1, S1024x1] S1024x12 1
  inb_S1024x12_S1024x12_0_0 : ∀ a, (![0, 0] : Fin 2 → Nat) a + S1024x12.size a ≤ S1024x12.size a
  h_S1024x12 : 0 < S1024x12.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x6.size a ≤ S4194304x6.size a
  hwx0_0 : ∀ i : grid0.Coords, EltTy.bits .f32 = 32 ∨ (Rect.block (s := S4194304x6) S1024x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x12.size a ≤ S4194304x12.size a
  hwx0_1 : ∀ i : grid0.Coords, EltTy.bits .f32 = 32 ∨ (Rect.block (s := S4194304x12) S1024x12.size (cc0_transform_1 i) (hinb0_1 i)).WholeWords (EltTy.packing .f32)

variable [Facts₀]

abbrev win0_0 : Pipeline.Window sig grid0 :=
  Pipeline.Window.ofSpec (Memref.whole main_arg0) S1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x12.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x6 : Shape := ⟨2, ![4194304, 6]⟩
abbrev S4194304x3 : Shape := ⟨2, ![4194304, 3]⟩
abbrev S4194304x1 : Shape := ⟨2, ![4194304, 1]⟩
abbrev S4194304 : Shape := ⟨1, ![4194304]⟩
abbrev S_ : Shape := ⟨0, ![]⟩
abbrev S4194304x1x3 : Shape := ⟨3, ![4194304, 1, 3]⟩
abbrev S4194304x3x3 : Shape := ⟨3, ![4194304, 3, 3]⟩
abbrev S3x3 : Shape := ⟨2, ![3, 3]⟩
abbrev S1x3x3 : Shape := ⟨3, ![1, 3, 3]⟩
abbrev S4194304x3x1 : Shape := ⟨3, ![4194304, 3, 1]⟩
abbrev S4194304x3x4 : Shape := ⟨3, ![4194304, 3, 4]⟩
abbrev S4194304x12 : Shape := ⟨2, ![4194304, 12]⟩

abbrev nBuf : Space → Nat
  | .hbm => 84
  | .vmem => 0
  | .smem => 0
  | _ => 0

abbrev bufTy : (tb : Table) → Fin (tcTables nBuf tb) → BufTy
  | .hbm, ⟨0, _⟩ => ⟨S4194304x6, .f32⟩
  | .hbm, ⟨1, _⟩ => ⟨S4194304x3, .f32⟩
  | .hbm, ⟨2, _⟩ => ⟨S4194304x1, .f32⟩
  | .hbm, ⟨3, _⟩ => ⟨S4194304, .f32⟩
  | .hbm, ⟨4, _⟩ => ⟨S4194304x1, .f32⟩
  | .hbm, ⟨5, _⟩ => ⟨S4194304, .f32⟩
  | .hbm, ⟨6, _⟩ => ⟨S4194304x1, .f32⟩
  | .hbm, ⟨7, _⟩ => ⟨S4194304, .f32⟩
  | .hbm, ⟨8, _⟩ => ⟨S4194304, .f32⟩
  | .hbm, ⟨9, _⟩ => ⟨S4194304, .f32⟩
  | .hbm, ⟨10, _⟩ => ⟨S4194304, .f32⟩
  | .hbm, ⟨11, _⟩ => ⟨S4194304, .f32⟩
  | .hbm, ⟨12, _⟩ => ⟨S4194304, .f32⟩
  | .hbm, ⟨13, _⟩ => ⟨S4194304, .f32⟩
  | .hbm, ⟨14, _⟩ => ⟨S_, .f32⟩
  | .hbm, ⟨15, _⟩ => ⟨S4194304, .f32⟩
  | .hbm, ⟨16, _⟩ => ⟨S_, .f32⟩
  | .hbm, ⟨17, _⟩ => ⟨S4194304, .f32⟩
  | .hbm, ⟨18, _⟩ => ⟨S4194304x1, .f32⟩
  | .hbm, ⟨19, _⟩ => ⟨S4194304x1, .f32⟩
  | .hbm, ⟨20, _⟩ => ⟨S4194304x1, .f32⟩
  | .hbm, ⟨21, _⟩ => ⟨S4194304x3, .f32⟩
  | .hbm, ⟨22, _⟩ => ⟨S4194304, .f32⟩
  | .hbm, ⟨23, _⟩ => ⟨S4194304x1, .f32⟩
  | .hbm, ⟨24, _⟩ => ⟨S4194304x1, .f32⟩
  | .hbm, ⟨25, _⟩ => ⟨S4194304x1, .f32⟩
  | .hbm, ⟨26, _⟩ => ⟨S4194304x3, .f32⟩
  | .hbm, ⟨27, _⟩ => ⟨S4194304x1, .f32⟩
  | .hbm, ⟨28, _⟩ => ⟨S4194304x1, .f32⟩
  | .hbm, ⟨29, _⟩ => ⟨S4194304x1, .f32⟩
  | .hbm, ⟨30, _⟩ => ⟨S4194304x3, .f32⟩
  | .hbm, ⟨31, _⟩ => ⟨S4194304x1x3, .f32⟩
  | .hbm, ⟨32, _⟩ => ⟨S4194304x1x3, .f32⟩
  | .hbm, ⟨33, _⟩ => ⟨S4194304x1x3, .f32⟩
  | .hbm, ⟨34, _⟩ => ⟨S4194304x3x3, .f32⟩
  | .hbm, ⟨35, _⟩ => ⟨S4194304x1, .f32⟩
  | .hbm, ⟨36, _⟩ => ⟨S4194304x1, .f32⟩
  | .hbm, ⟨37, _⟩ => ⟨S4194304x1, .f32⟩
  | .hbm, ⟨38, _⟩ => ⟨S4194304x3, .f32⟩
  | .hbm, ⟨39, _⟩ => ⟨S4194304x1, .f32⟩
  | .hbm, ⟨40, _⟩ => ⟨S4194304x1, .f32⟩
  | .hbm, ⟨41, _⟩ => ⟨S4194304x1, .f32⟩
  | .hbm, ⟨42, _⟩ => ⟨S4194304x3, .f32⟩
  | .hbm, ⟨43, _⟩ => ⟨S4194304, .f32⟩
  | .hbm, ⟨44, _⟩ => ⟨S4194304x1, .f32⟩
  | .hbm, ⟨45, _⟩ => ⟨S4194304x1, .f32⟩
  | .hbm, ⟨46, _⟩ => ⟨S4194304x1, .f32⟩
  | .hbm, ⟨47, _⟩ => ⟨S4194304x3, .f32⟩
  | .hbm, ⟨48, _⟩ => ⟨S4194304x1x3, .f32⟩
  | .hbm, ⟨49, _⟩ => ⟨S4194304x1x3, .f32⟩
  | .hbm, ⟨50, _⟩ => ⟨S4194304x1x3, .f32⟩
  | .hbm, ⟨51, _⟩ => ⟨S4194304x3x3, .f32⟩
  | .hbm, ⟨52, _⟩ => ⟨S4194304, .f32⟩
  | .hbm, ⟨53, _⟩ => ⟨S4194304x1, .f32⟩
  | .hbm, ⟨54, _⟩ => ⟨S4194304x1, .f32⟩
  | .hbm, ⟨55, _⟩ => ⟨S4194304x1, .f32⟩
  | .hbm, ⟨56, _⟩ => ⟨S4194304x3, .f32⟩
  | .hbm, ⟨57, _⟩ => ⟨S4194304x1, .f32⟩
  | .hbm, ⟨58, _⟩ => ⟨S4194304x1, .f32⟩
  | .hbm, ⟨59, _⟩ => ⟨S4194304x1, .f32⟩
  | .hbm, ⟨60, _⟩ => ⟨S4194304x3, .f32⟩
  | .hbm, ⟨61, _⟩ => ⟨S4194304x1, .f32⟩
  | .hbm, ⟨62, _⟩ => ⟨S4194304x1, .f32⟩
  | .hbm, ⟨63, _⟩ => ⟨S4194304x1, .f32⟩
  | .hbm, ⟨64, _⟩ => ⟨S4194304x3, .f32⟩
  | .hbm, ⟨65, _⟩ => ⟨S4194304x1x3, .f32⟩
  | .hbm, ⟨66, _⟩ => ⟨S4194304x1x3, .f32⟩
  | .hbm, ⟨67, _⟩ => ⟨S4194304x1x3, .f32⟩
  | .hbm, ⟨68, _⟩ => ⟨S4194304x3x3, .f32⟩
  | .hbm, ⟨69, _⟩ => ⟨S4194304x3x3, .f32⟩
  | .hbm, ⟨70, _⟩ => ⟨S4194304x3x3, .f32⟩
  | .hbm, ⟨71, _⟩ => ⟨S3x3, .i32⟩
  | .hbm, ⟨72, _⟩ => ⟨S3x3, .i32⟩
  | .hbm, ⟨73, _⟩ => ⟨S_, .i32⟩
  | .hbm, ⟨74, _⟩ => ⟨S3x3, .i32⟩
  | .hbm, ⟨75, _⟩ => ⟨S3x3, .i32⟩
  | .hbm, ⟨76, _⟩ => ⟨S3x3, .i1⟩
  | .hbm, ⟨77, _⟩ => ⟨S3x3, .f32⟩
  | .hbm, ⟨78, _⟩ => ⟨S1x3x3, .f32⟩
  | .hbm, ⟨79, _⟩ => ⟨S4194304x3x3, .f32⟩
  | .hbm, ⟨80, _⟩ => ⟨S4194304x3x3, .f32⟩
  | .hbm, ⟨81, _⟩ => ⟨S4194304x3x1, .f32⟩
  | .hbm, ⟨82, _⟩ => ⟨S4194304x3x4, .f32⟩
  | .hbm, ⟨83, _⟩ => ⟨S4194304x12, .f32⟩
  | _, _ => ⟨S4194304x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_c : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩

abbrev nD : Nat := 1
abbrev τ : Topo := Topo.v7x

variable {F : FTy → Type} [FloatOps F]

class Facts₀ : Prop where
  slices_S4194304x6_S4194304x3_0_0 : S4194304x6.Slices ![0, 0] S4194304x3
  slices_S4194304x6_S4194304x1_0_3 : S4194304x6.Slices ![0, 3] S4194304x1
  shapeCasts_S4194304x1_S4194304 : S4194304x1.ShapeCasts S4194304
  slices_S4194304x6_S4194304x1_0_4 : S4194304x6.Slices ![0, 4] S4194304x1
  slices_S4194304x6_S4194304x1_0_5 : S4194304x6.Slices ![0, 5] S4194304x1
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x1_S4194304x3_d1 : Shape.Concatenates [S4194304x1, S4194304x1, S4194304x1] S4194304x3 1
  bcast_S4194304x3_S4194304x1x3_0_2 : S4194304x3.BroadcastsInDim S4194304x1x3 (![0, 2] : Fin 2 → Fin S4194304x1x3.rank)
  concatenates_S4194304x1x3_S4194304x1x3_S4194304x1x3_S4194304x3x3_d1 : Shape.Concatenates [S4194304x1x3, S4194304x1x3, S4194304x1x3] S4194304x3x3 1
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S4194304x3x3_0_1_2 : S1x3x3.BroadcastsInDim S4194304x3x3 (![0, 1, 2] : Fin 3 → Fin S4194304x3x3.rank)
  bcast_S4194304x3_S4194304x3x1_0_1 : S4194304x3.BroadcastsInDim S4194304x3x1 (![0, 1] : Fin 2 → Fin S4194304x3x1.rank)
  concatenates_S4194304x3x3_S4194304x3x1_S4194304x3x4_d2 : Shape.Concatenates [S4194304x3x3, S4194304x3x1] S4194304x3x4 2
  shapeCasts_S4194304x3x4_S4194304x12 : S4194304x3x4.ShapeCasts S4194304x12
  dot_S4194304x3x3_S4194304x3x3_S4194304x3x3_1_2_2_1_0_0_wf : DotDims.WF S4194304x3x3 S4194304x3x3 S4194304x3x3 [1] [2] [2] [1] [0] [0]
  dot_S4194304x3x3_S4194304x3x3_S4194304x3x3_1_1_2_2_0_0_wf : DotDims.WF S4194304x3x3 S4194304x3x3 S4194304x3x3 [1] [1] [2] [2] [0] [0]

variable [Facts₀]

def dot_S4194304x3x3_S4194304x3x3_S4194304x3x3_1_2_2_1_0_0 : DotDims S4194304x3x3 S4194304x3x3 S4194304x3x3 where
  lhsContracting := [1]
  rhsContracting := [2]
  lhsNonContracting := [2]
  rhsNonContracting := [1]
  lhsBatch := [0]
  rhsBatch := [0]
  wf := dot_S4194304x3x3_S4194304x3x3_S4194304x3x3_1_2_2_1_0_0_wf
def dot_S4194304x3x3_S4194304x3x3_S4194304x3x3_1_1_2_2_0_0 : DotDims S4194304x3x3 S4194304x3x3 S4194304x3x3 where
  lhsContracting := [1]
  rhsContracting := [1]
  lhsNonContracting := [2]
  rhsNonContracting := [2]
  lhsBatch := [0]
  rhsBatch := [0]
  wf := dot_S4194304x3x3_S4194304x3x3_S4194304x3x3_1_1_2_2_0_0_wf

class Facts : Prop extends Facts₀ where

variable [Facts]
-- ==== Proof.Rotation.lean ====
/-
  Rotation by three angles, minus the identity, beside a translation: the mathematics of this certificate,
  with no program in sight.

  A row of the argument holds a translation (tx, ty, tz) and three angles (ax, ay, az). From the angles come the
  elementary rotations about the three axes,
      X = [[1, 0, 0], [0, cx, -sx], [0, sx, cx]],   Y = [[cy, 0, sy], [0, 1, 0], [-sy, 0, cy]],
      Z = [[cz, -sz, 0], [sz, cz, 0], [0, 0, 1]],
  with c· = cos and s· = sin of the angle. One program multiplies them out, (X · Y) · Z, as two contractions over an
  index of three values, and subtracts the identity; the other writes the nine entries of (X · Y) · Z - 1 as
  polynomials in the six sines and cosines. Each then sets the translation beside the 3 × 3 block, giving a 3 × 4
  block read row after row as twelve numbers.

  On real numbers the two are one function: expanding the double sum entry by entry and dropping the products with
  the matrices' zeros leaves exactly the polynomial (`product_eq_closed`). The statement is about REAL angles: on the
  extended reals a product does not distribute over a sum at the infinities, and the sine and cosine of an infinity
  are not numbers at all, so the law is stated where every quantity is a real number carried into the extended reals.
-/
import Idealize.ShloMosaic.PureOps.Ideal
import Idealize.ShloMosaic.PureOps.Ideal.Laws
import Idealize.ShloMosaic.Lib.ValueIdx

noncomputable section

namespace Cert.Rotation

open Idealize.ShloMosaic Idealize.ShloMosaic.ValueIdx

/-! ## The two constants -/

/-- The single-precision pattern of `1.0`, as the extended real it denotes. -/
abbrev one : EReal := Ideal.ofBits .f32 0x3F800000#32
/-- The single-precision pattern of `+0.0`, as the extended real it denotes. -/
abbrev zero : EReal := Ideal.ofBits .f32 0x00000000#32

/-- The pattern of `1.0` denotes the number one: sign 0, exponent 127 = the bias, fraction 0, so (2²³ + 0) · 2⁻²³. -/
theorem one_eq : one = 1 := by
  simp [one, Ideal.ofBits, Ideal.ieee, -EReal.coe_mul]; norm_num

/-- The pattern of `+0.0` denotes zero. -/
theorem zero_eq : zero = 0 := Ideal.ofBits_zero_f32

/-! ## Matrices of three rows and three columns -/

/-- The 3 × 3 matrix with the given entries, row by row. -/
def mat9 {β : Type} (e00 e01 e02 e10 e11 e12 e20 e21 e22 : β) (r j : Fin 3) : β :=
  match r, j with
  | ⟨0, _⟩, ⟨0, _⟩ => e00 | ⟨0, _⟩, ⟨1, _⟩ => e01 | ⟨0, _⟩, ⟨2, _⟩ => e02
  | ⟨1, _⟩, ⟨0, _⟩ => e10 | ⟨1, _⟩, ⟨1, _⟩ => e11 | ⟨1, _⟩, ⟨2, _⟩ => e12
  | ⟨2, _⟩, ⟨0, _⟩ => e20 | ⟨2, _⟩, ⟨1, _⟩ => e21 | ⟨2, _⟩, ⟨2, _⟩ => e22

/-- Rotation about the first axis by the angle `a`. -/
def rotX (a : EReal) : Fin 3 → Fin 3 → EReal :=
  mat9 one zero zero zero (Ideal.cos a) (-(Ideal.sin a)) zero (Ideal.sin a) (Ideal.cos a)
/-- Rotation about the second axis by the angle `a`. -/
def rotY (a : EReal) : Fin 3 → Fin 3 → EReal :=
  mat9 (Ideal.cos a) zero (Ideal.sin a) zero one zero (-(Ideal.sin a)) zero (Ideal.cos a)
/-- Rotation about the third axis by the angle `a`. -/
def rotZ (a : EReal) : Fin 3 → Fin 3 → EReal :=
  mat9 (Ideal.cos a) (-(Ideal.sin a)) zero (Ideal.sin a) (Ideal.cos a) zero zero zero one

/-- The identity matrix. -/
def delta : Fin 3 → Fin 3 → EReal := mat9 1 0 0 0 1 0 0 0 1

/-- Entry (r, l) of (X · Y) · Z - 1, as the two contractions compute it: the inner sum over `j` is entry (r, k) of
    X · Y, written with Y's factor first; the outer sum over `k` multiplies by Z's column `l`. -/
def product (ax ay az : EReal) (r l : Fin 3) : EReal :=
  (∑ k : Fin 3, (∑ j : Fin 3, rotY ay j k * rotX ax r j) * rotZ az k l) - delta r l

/-! ## The closed form -/

/-- The twelve numbers of one row, read off directly: the nine entries of (X · Y) · Z - 1 as polynomials in the sines
    and cosines (a negation written as a difference from zero), each row of three followed by its translation. -/
def closedForm (tx ty tz ax ay az : EReal) (n : Fin 12) : EReal :=
  match n with
  | ⟨0, _⟩ => Ideal.cos ay * Ideal.cos az - one
  | ⟨1, _⟩ => zero - Ideal.cos ay * Ideal.sin az
  | ⟨2, _⟩ => Ideal.sin ay
  | ⟨3, _⟩ => tx
  | ⟨4, _⟩ => Ideal.sin ax * Ideal.sin ay * Ideal.cos az + Ideal.cos ax * Ideal.sin az
  | ⟨5, _⟩ => zero - Ideal.sin ax * Ideal.sin ay * Ideal.sin az + Ideal.cos ax * Ideal.cos az - one
  | ⟨6, _⟩ => zero - Ideal.sin ax * Ideal.cos ay
  | ⟨7, _⟩ => ty
  | ⟨8, _⟩ => zero - Ideal.cos ax * Ideal.sin ay * Ideal.cos az + Ideal.sin ax * Ideal.sin az
  | ⟨9, _⟩ => Ideal.cos ax * Ideal.sin ay * Ideal.sin az + Ideal.sin ax * Ideal.cos az
  | ⟨10, _⟩ => Ideal.cos ax * Ideal.cos ay - one
  | ⟨11, _⟩ => tz

/-- Position `4 r + l` of a row of twelve: column `l` of row `r` of the 3 × 4 block. -/
abbrev at34 (r : Fin 3) (l : Fin 4) : Fin 12 := ⟨4 * r.val + l.val, by have := r.isLt; have := l.isLt; omega⟩

/-- The cosine of a real number, carried into the extended reals, is the real cosine. -/
theorem cos_coe (r : ℝ) : Ideal.cos (r : EReal) = ((Real.cos r : ℝ) : EReal) := rfl
/-- The sine of a real number, carried into the extended reals, is the real sine. -/
theorem sin_coe (r : ℝ) : Ideal.sin (r : EReal) = ((Real.sin r : ℝ) : EReal) := rfl

/-- THE LAW. For real angles, entry (r, l) of the multiplied-out product minus the identity is the closed form's
    polynomial at position 4 r + l: of the nine products in the double sum those with a zero of X, Y or Z vanish, a
    factor one drops, and what is left is the polynomial, sign by sign. Every quantity is a real number carried into
    the extended reals, where sums, products, differences and negations of carried numbers are the carried sums,
    products, differences and negations: the equation is one between real polynomials. -/
theorem product_eq_closed (tx ty tz : EReal) (a b c : ℝ) (r l : Fin 3) :
    product (a : EReal) (b : EReal) (c : EReal) r l
      = closedForm tx ty tz (a : EReal) (b : EReal) (c : EReal) (at34 r ⟨l.val, by have := l.isLt; omega⟩) := by
  fin_cases r <;> fin_cases l <;>
    simp only [product, closedForm, at34, rotX, rotY, rotZ, mat9, delta, Fin.sum_univ_three, one_eq, zero_eq,
      cos_coe, sin_coe] <;>
    norm_cast <;> ring

/-! ## The whole array -/

/-- The argument array: rows of six numbers. -/
abbrev SIn : Shape := ⟨2, ![4194304, 6]⟩
/-- The result array: rows of twelve numbers. -/
abbrev SOut : Shape := ⟨2, ![4194304, 12]⟩

/-- The result as ONE function of the argument, index by index: entry `n` of row `b` is the closed form's `n`-th
    number of row `b`'s translation and angles. -/
def G (x : SIn.Idx → EReal) : SOut.Idx → EReal := fun i =>
  let b : Fin 4194304 := ⟨(i 0).val, (i 0).isLt⟩
  closedForm (x (ix2 b (0 : Fin 6))) (x (ix2 b (1 : Fin 6))) (x (ix2 b (2 : Fin 6)))
    (x (ix2 b (3 : Fin 6))) (x (ix2 b (4 : Fin 6))) (x (ix2 b (5 : Fin 6))) ⟨(i 1).val, (i 1).isLt⟩

theorem G_apply (x : SIn.Idx → EReal) (b : Fin 4194304) (n : Fin 12) :
    G x (ix2 b n) = closedForm (x (ix2 b (0 : Fin 6))) (x (ix2 b (1 : Fin 6))) (x (ix2 b (2 : Fin 6)))
      (x (ix2 b (3 : Fin 6))) (x (ix2 b (4 : Fin 6))) (x (ix2 b (5 : Fin 6))) n := rfl

end Cert.Rotation

end
-- ==== Proof.Stack.lean ====
/-
  A batch of 3 × 3 matrices assembled from nine columns, read at an index.

  Nine arrays of one number per row `b` (the entries-to-be of a matrix that depends on `b`) are each given a unit
  second axis, joined three at a time along that axis into arrays of three numbers per row (the matrix's rows), each of
  those given a unit middle axis, and the three joined along it: an array indexed (b, r, j). Whatever the nine arrays
  hold, entry (b, r, j) of the result is the (r, j)-th of the nine at `b`: the outer join picks the row-array `r` names,
  the inner join the column `j` names, and neither unit axis carries information.
-/
import Idealize.ShloMosaic.Lib.Pipeline.Value
import Idealize.ShloMosaic.Lib.ValueIdx
import proofs.«115544_j73392401154579_2_alg».proof.Proof.Rotation

noncomputable section

namespace Cert.Stack

open Idealize.ShloMosaic Idealize.ShloMosaic.ValueIdx Cert.Rotation

variable {α : Type}

/-- One number per row. -/
abbrev SB : Shape := ⟨1, ![4194304]⟩
/-- One number per row, with a unit second axis. -/
abbrev SB1 : Shape := ⟨2, ![4194304, 1]⟩
/-- Three numbers per row. -/
abbrev SB3 : Shape := ⟨2, ![4194304, 3]⟩
/-- Three numbers per row, with a unit middle axis. -/
abbrev SB13 : Shape := ⟨3, ![4194304, 1, 3]⟩
/-- A 3 × 3 matrix per row. -/
abbrev SB33 : Shape := ⟨3, ![4194304, 3, 3]⟩

/-- The one of three that `n` names. -/
def pick3 {β : Type} (x0 x1 x2 : β) (n : Fin 3) : β :=
  match n with | ⟨0, _⟩ => x0 | ⟨1, _⟩ => x1 | ⟨2, _⟩ => x2

/-- A unit second axis added to a per-row array: entry (b, 0) is entry b. -/
theorem column_apply (h : SB.BroadcastsInDim SB1 (![0] : Fin 1 → Fin SB1.rank)) (f : SB.Idx → α) (b : Fin 4194304) :
    broadcastInDim SB1 ![0] h f (ix2 b (0 : Fin 1)) = f (ix1 b) :=
  broadcastInDim_apply _ h f _ (ix1 b) (fun a => match a with
    | ⟨0, _⟩ => by show b.val = if (4194304 : Nat) = 1 then 0 else b.val; rw [if_neg (by decide)])

/-- A unit middle axis added to an array of three per row: entry (b, 0, j) is entry (b, j). -/
theorem lift_apply (h : SB3.BroadcastsInDim SB13 (![0, 2] : Fin 2 → Fin SB13.rank)) (f : SB3.Idx → α)
    (b : Fin 4194304) (j : Fin 3) :
    broadcastInDim SB13 ![0, 2] h f (ix3 b (0 : Fin 1) j) = f (ix2 b j) :=
  broadcastInDim_apply _ h f _ (ix2 b j) (fun a => match a with
    | ⟨0, _⟩ => by show b.val = if (4194304 : Nat) = 1 then 0 else b.val; rw [if_neg (by decide)]
    | ⟨1, _⟩ => by show j.val = if (3 : Nat) = 1 then 0 else j.val; rw [if_neg (by decide)])

/-- Three unit-width columns joined along the second axis: entry (b, j) is column `j`'s entry (b, 0). -/
theorem row_apply (h : Shape.Concatenates [SB1, SB1, SB1] SB3 1) (f0 f1 f2 : SB1.Idx → α) (b : Fin 4194304) (j : Fin 3) :
    concatenate SB3 1 [⟨SB1, f0⟩, ⟨SB1, f1⟩, ⟨SB1, f2⟩] h (ix2 b j) = pick3 f0 f1 f2 j (ix2 b (0 : Fin 1)) := by
  show concatenate SB3 1 (List.ofFn fun n : Fin 3 => (⟨SB1, pick3 f0 f1 f2 n⟩ : (s : Shape) × (s.Idx → α))) _ (ix2 b j) = _
  exact concatenate_ofFn_unit_apply (t := SB3) (s₁ := SB1) (1 : Fin 2) (pick3 f0 f1 f2) _ rfl rfl (ix2 b j) j rfl
    (ix2 b (0 : Fin 1)) (fun a ha => by match a with | ⟨0, _⟩ => rfl | ⟨1, _⟩ => exact absurd rfl ha)

/-- Three unit-height rows joined along the middle axis: entry (b, r, j) is row `r`'s entry (b, 0, j). -/
theorem rows_apply (h : Shape.Concatenates [SB13, SB13, SB13] SB33 1) (g0 g1 g2 : SB13.Idx → α)
    (b : Fin 4194304) (r j : Fin 3) :
    concatenate SB33 1 [⟨SB13, g0⟩, ⟨SB13, g1⟩, ⟨SB13, g2⟩] h (ix3 b r j) = pick3 g0 g1 g2 r (ix3 b (0 : Fin 1) j) := by
  show concatenate SB33 1 (List.ofFn fun n : Fin 3 => (⟨SB13, pick3 g0 g1 g2 n⟩ : (s : Shape) × (s.Idx → α))) _ (ix3 b r j) = _
  exact concatenate_ofFn_unit_apply (t := SB33) (s₁ := SB13) (1 : Fin 3) (pick3 g0 g1 g2) _ rfl rfl (ix3 b r j) r rfl
    (ix3 b (0 : Fin 1) j) (fun a ha => by match a with | ⟨0, _⟩ => rfl | ⟨1, _⟩ => exact absurd rfl ha | ⟨2, _⟩ => rfl)

/-- The batch of matrices assembled from nine per-row arrays, entry (r, j) from `c_rj`. -/
def stack (hc : SB.BroadcastsInDim SB1 (![0] : Fin 1 → Fin SB1.rank)) (hr : Shape.Concatenates [SB1, SB1, SB1] SB3 1)
    (hl : SB3.BroadcastsInDim SB13 (![0, 2] : Fin 2 → Fin SB13.rank)) (hm : Shape.Concatenates [SB13, SB13, SB13] SB33 1)
    (c00 c01 c02 c10 c11 c12 c20 c21 c22 : SB.Idx → α) : SB33.Idx → α :=
  concatenate SB33 1
    [⟨SB13, broadcastInDim SB13 ![0, 2] hl (concatenate SB3 1 [⟨SB1, broadcastInDim SB1 ![0] hc c00⟩, ⟨SB1, broadcastInDim SB1 ![0] hc c01⟩, ⟨SB1, broadcastInDim SB1 ![0] hc c02⟩] hr)⟩,
     ⟨SB13, broadcastInDim SB13 ![0, 2] hl (concatenate SB3 1 [⟨SB1, broadcastInDim SB1 ![0] hc c10⟩, ⟨SB1, broadcastInDim SB1 ![0] hc c11⟩, ⟨SB1, broadcastInDim SB1 ![0] hc c12⟩] hr)⟩,
     ⟨SB13, broadcastInDim SB13 ![0, 2] hl (concatenate SB3 1 [⟨SB1, broadcastInDim SB1 ![0] hc c20⟩, ⟨SB1, broadcastInDim SB1 ![0] hc c21⟩, ⟨SB1, broadcastInDim SB1 ![0] hc c22⟩] hr)⟩] hm

/-- Entry (b, r, j) of the assembled batch is the (r, j)-th of the nine arrays at `b`. -/
theorem stack_apply (hc : SB.BroadcastsInDim SB1 (![0] : Fin 1 → Fin SB1.rank)) (hr : Shape.Concatenates [SB1, SB1, SB1] SB3 1)
    (hl : SB3.BroadcastsInDim SB13 (![0, 2] : Fin 2 → Fin SB13.rank)) (hm : Shape.Concatenates [SB13, SB13, SB13] SB33 1)
    (c00 c01 c02 c10 c11 c12 c20 c21 c22 : SB.Idx → α) (b : Fin 4194304) (r j : Fin 3) :
    stack hc hr hl hm c00 c01 c02 c10 c11 c12 c20 c21 c22 (ix3 b r j)
      = mat9 (c00 (ix1 b)) (c01 (ix1 b)) (c02 (ix1 b)) (c10 (ix1 b)) (c11 (ix1 b)) (c12 (ix1 b))
          (c20 (ix1 b)) (c21 (ix1 b)) (c22 (ix1 b)) r j := by
  unfold stack
  rw [rows_apply]
  fin_cases r <;> fin_cases j <;>
    (simp only [pick3]; rw [lift_apply, row_apply]; simp only [pick3]; exact column_apply hc _ b)

end Cert.Stack

end
-- ==== Proof.Finite.lean ====
/-
  What the precondition says: every entry of the argument is a real number.

  The precondition compares the absolute value of each entry with +∞ and takes the conjunction over the whole array.
  If the conjunction holds then each comparison holds, and an extended real whose absolute value is below +∞ is neither
  infinity, hence a real number. This is what lets the rotation law, an identity between real polynomials, be used.
-/
import proofs.«115544_j73392401154579_2_alg».proof.Pre_finite_inputs
import proofs.«115544_j73392401154579_2_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Finite

open Idealize.ShloMosaic Cert.Pre_finite_inputs

/-- The shape with no axes has one index. -/
instance : Subsingleton S_.Idx := ⟨fun _ _ => funext fun d => d.elim0⟩

/-- An extended real whose absolute value, max x (-x), is below +∞ is a real number: at either infinity the absolute
    value is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern with all exponent bits set and no fraction bit denotes +∞. -/
theorem inf_eq : Ideal.ofBits .f32 0x7F800000#32 = ⊤ := by
  simp [Ideal.ofBits, Ideal.ieee]

/-- If the precondition holds of an array then every entry of it is a real number. -/
theorem real_of_pre (x : FVec Ideal S4194304x6 .f32) (h : fn (F := Ideal) x = fun _ => 1#1) (i : S4194304x6.Idx) :
    ∃ r : ℝ, x i = (r : EReal) := by
  have h0 := congrFun h ValueIdx.ix0
  dsimp only [fn] at h0
  have hi := Host.reduce_andi_all _ _ _ _ _ h0 i
  have hb : broadcastInDim S4194304x6 ![] Facts.bcast_S_S4194304x6 (constant (F := Ideal) S_ .f32 0x7F800000#32) i
      = Ideal.ofBits .f32 0x7F800000#32 :=
    broadcastInDim_apply _ _ _ i ValueIdx.ix0 (fun a => a.elim0)
  have e : Ideal.cmp .olt (max (x i) (-(x i))) (Ideal.ofBits .f32 0x7F800000#32) = 1#1 := by
    rw [← hb]; exact hi
  rw [inf_eq] at e
  have hlt : max (x i) (-(x i)) < ⊤ := by
    by_contra hn
    simp [Ideal.cmp, hn] at e
  exact real_of_abs_lt_top _ hlt

end Cert.Finite

end
-- ==== Proof.KernelValue.lean ====
/-
  What the kernel's result array holds: the closed form of each row's translation and angles.

  The grid has 4096 points; point `t` is given rows 1024 t … 1024 t + 1023 of the argument (a block of 1024 rows of six
  numbers) and writes back rows 1024 t … 1024 t + 1023 of the result (1024 rows of twelve). Inside a block the body
  reads the six columns, forms the sines and cosines of the last three, computes nine polynomials in them, and joins
  those with the first three columns, twelve columns in all: entry (y, n) of the block it writes is the closed form's
  `n`-th number of row `y` of the block it read. Row `y` of block `t` is row 1024 t + y of the array on both sides, and
  every row of the result lies in exactly the block its quotient by 1024 names, so the blocks cover the array and the
  result array is the closed form of the argument array, row by row.
-/
import proofs.«115544_j73392401154579_2_alg».proof.Proof.Gen.KernelIdeal.Value
import proofs.«115544_j73392401154579_2_alg».proof.Proof.Rotation
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Value Cert.Rotation
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One block -/

/-- The row of a block index. -/
abbrev rowOf (y : S1024x12.Idx) : Fin 1024 := ⟨(y 0).val, (y 0).isLt⟩
/-- The column of a block index. -/
abbrev colOf (y : S1024x12.Idx) : Fin 12 := ⟨(y 1).val, (y 1).isLt⟩

/-- The twelve joined columns, at an index: column `n` at row `y` is the closed form's `n`-th number of the six loaded
    columns' entries at row `y` (the loads in the order angle 2, angle 3, translation 1, angle 1, translation 2,
    translation 3). -/
theorem block_entry (P0 P1 P2 P3 P4 P5 : Vec Ideal S1024x1 .f32) (y : S1024x12.Idx) :
    E1 (F := Ideal) P0 P1 P2 P3 P4 P5 y
      = closedForm (P2 (ix1_0 y)) (P4 (ix1_0 y)) (P5 (ix1_0 y)) (P3 (ix1_0 y)) (P0 (ix1_0 y)) (P1 (ix1_0 y)) (colOf y) := by
  show Cat1_0 P0 P1 P2 P3 P4 P5 (colOf y) (ix1_0 y) = _
  generalize colOf y = n
  generalize ix1_0 y = q
  match n with
  | ⟨0, _⟩ => rfl | ⟨1, _⟩ => rfl | ⟨2, _⟩ => rfl | ⟨3, _⟩ => rfl | ⟨4, _⟩ => rfl | ⟨5, _⟩ => rfl
  | ⟨6, _⟩ => rfl | ⟨7, _⟩ => rfl | ⟨8, _⟩ => rfl | ⟨9, _⟩ => rfl | ⟨10, _⟩ => rfl | ⟨11, _⟩ => rfl

/-- Column `k` of a block of six columns, loaded as a block of one column, holds at row `y` the block's entry (y, k). -/
theorem ld_col (x0 : Vec Ideal S1024x6 .f32) (k : Fin 6)
    (inb : ∀ a, (![0, k.val] : Fin 2 → Nat) a + S1024x1.size a ≤ S1024x6.size a) (y : S1024x12.Idx) :
    View.ld x0 (Rect.unit (s := S1024x6) ![0, k.val] S1024x1.size inb) (ix1_0 y) = x0 (ix2 (rowOf y) k) := by
  show x0 ((Rect.unit (s := S1024x6) ![0, k.val] S1024x1.size inb).idx (ix1_0 y)) = _
  refine congrArg x0 (funext fun a => Fin.ext ?_)
  match a with
  | ⟨0, _⟩ => show 0 + 1 * (y 0).val = (y 0).val; omega
  | ⟨1, _⟩ => show k.val + 1 * 0 = k.val; omega

theorem ld0 (x0 : Vec Ideal S1024x6 .f32) (y : S1024x12.Idx) : View.ld x0 r0_0 (ix1_0 y) = x0 (ix2 (rowOf y) (0 : Fin 6)) :=
  ld_col x0 0 inb_S1024x6_S1024x1_0_0 y
theorem ld1 (x0 : Vec Ideal S1024x6 .f32) (y : S1024x12.Idx) : View.ld x0 r0_1 (ix1_0 y) = x0 (ix2 (rowOf y) (1 : Fin 6)) :=
  ld_col x0 1 inb_S1024x6_S1024x1_0_1 y
theorem ld2 (x0 : Vec Ideal S1024x6 .f32) (y : S1024x12.Idx) : View.ld x0 r0_2 (ix1_0 y) = x0 (ix2 (rowOf y) (2 : Fin 6)) :=
  ld_col x0 2 inb_S1024x6_S1024x1_0_2 y
theorem ld3 (x0 : Vec Ideal S1024x6 .f32) (y : S1024x12.Idx) : View.ld x0 r0_3 (ix1_0 y) = x0 (ix2 (rowOf y) (3 : Fin 6)) :=
  ld_col x0 3 inb_S1024x6_S1024x1_0_3 y
theorem ld4 (x0 : Vec Ideal S1024x6 .f32) (y : S1024x12.Idx) : View.ld x0 r0_4 (ix1_0 y) = x0 (ix2 (rowOf y) (4 : Fin 6)) :=
  ld_col x0 4 inb_S1024x6_S1024x1_0_4 y
theorem ld5 (x0 : Vec Ideal S1024x6 .f32) (y : S1024x12.Idx) : View.ld x0 r0_5 (ix1_0 y) = x0 (ix2 (rowOf y) (5 : Fin 6)) :=
  ld_col x0 5 inb_S1024x6_S1024x1_0_5 y

/-- WHAT THE BODY LEAVES in the block it writes, from the block it read: entry (y, n) is the closed form's `n`-th
    number of row `y`'s six entries. -/
theorem out_entry (x0 : Vec Ideal S1024x6 .f32) (y : S1024x12.Idx) :
    out0_1 x0 y = closedForm (x0 (ix2 (rowOf y) (0 : Fin 6))) (x0 (ix2 (rowOf y) (1 : Fin 6))) (x0 (ix2 (rowOf y) (2 : Fin 6)))
      (x0 (ix2 (rowOf y) (3 : Fin 6))) (x0 (ix2 (rowOf y) (4 : Fin 6))) (x0 (ix2 (rowOf y) (5 : Fin 6))) (colOf y) := by
  unfold out0_1
  refine (canon1_eq (View.ld x0 r0_4) (View.ld x0 r0_5) (View.ld x0 r0_0) (View.ld x0 r0_3) (View.ld x0 r0_1)
    (View.ld x0 r0_2) y).trans ?_
  rw [block_entry, ld0, ld1, ld2, ld3, ld4, ld5]

/-! ## The blocks in the arrays -/

/-- The printed index maps, decided once over the 4096 points: both windows' block index is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, k) of the block point `t` reads is entry (1024 t + r, k) of the argument array. -/
theorem iblk_col (c : Dev nD) (t : Fin cfg0.N) (r : Fin 1024) (k : Fin 6) (hb : t.val * 1024 + r.val < 4194304) :
    (iblk m c 0 t : Vec Ideal S1024x6 .f32) (ix2 r k)
      = (V m c main_arg0 : S4194304x6.Idx → EReal) (ix2 (⟨t.val * 1024 + r.val, hb⟩ : Fin 4194304) k) := by
  obtain ⟨e0, e1, -, -⟩ := idx_facts t
  show V m c main_arg0 (((cfg0.win 0).blk t).view.emb (ix2 r k)) = _
  refine congrArg (V m c main_arg0) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 6 + 1 * k.val = k.val; rw [e1]; omega

/-- WHAT POINT `t` WRITES BACK is block `t` of `G` of the argument array. -/
theorem flushed_eq (c : Dev nD) (t : Fin cfg0.N) :
    (dats m 0 c).flushed 1 t = ((cfg0.win 1).blk t).view.read (Elt Ideal) (G (V m c main_arg0)) := by
  rw [flushed1]
  obtain ⟨-, -, e2, e3⟩ := idx_facts t
  have hN : grid0.N = 4096 := N_0
  have ht : t.val < 4096 := hN ▸ t.isLt
  funext (y : S1024x12.Idx)
  have hy0 : (y 0).val < 1024 := (y 0).isLt
  have hy1 : (y 1).val < 12 := (y 1).isLt
  have hb : t.val * 1024 + (rowOf y).val < 4194304 := by show t.val * 1024 + (y 0).val < 4194304; omega
  show out0_1 (iblk m c 0 t) y = G (V m c main_arg0) (((cfg0.win 1).blk t).view.emb y)
  have hemb : ((cfg0.win 1).blk t).view.emb y
      = ix2 (⟨t.val * 1024 + (rowOf y).val, hb⟩ : Fin 4194304) (colOf y) := by
    funext a; apply Fin.ext
    match a with
    | ⟨0, _⟩ => show win0_1.index t (0 : Fin 2) * 1024 + 1 * (y 0).val = t.val * 1024 + (y 0).val; rw [e2]; omega
    | ⟨1, _⟩ => show win0_1.index t (1 : Fin 2) * 12 + 1 * (y 1).val = (y 1).val; rw [e3]; omega
  rw [hemb, G_apply]
  refine (out_entry (iblk m c 0 t) y).trans ?_
  rw [iblk_col m c t (rowOf y) 0 hb, iblk_col m c t (rowOf y) 1 hb, iblk_col m c t (rowOf y) 2 hb,
    iblk_col m c t (rowOf y) 3 hb, iblk_col m c t (rowOf y) 4 hb, iblk_col m c t (rowOf y) 5 hb]

/-- Every index of the result array lies in the block of the point its row's quotient by 1024 names. -/
theorem cover (i : S4194304x12.Idx) :
    ∃ t : Fin cfg0.N, (cfg0.win 1).flush t = true ∧ i ∈ ((cfg0.win 1).blk t).view.set := by
  have hN : grid0.N = 4096 := N_0
  have hi0 : (i 0).val < 4194304 := (i 0).isLt
  have hi1 : (i 1).val < 12 := (i 1).isLt
  have hq : (i 0).val / 1024 < cfg0.N := by show (i 0).val / 1024 < grid0.N; rw [hN]; omega
  obtain ⟨-, -, e2, e3⟩ := idx_facts ⟨(i 0).val / 1024, hq⟩
  refine ⟨⟨(i 0).val / 1024, hq⟩, flush0_1 _, ?_⟩
  show i ∈ ((View.whole main_v0).slice (win0_1.rect ⟨(i 0).val / 1024, hq⟩)).set
  rw [View.set_slice_whole, Rect.mem_set_unit]
  intro a
  match a with
  | ⟨0, _⟩ =>
    show win0_1.index ⟨(i 0).val / 1024, hq⟩ (0 : Fin 2) * 1024 ≤ (i 0).val
      ∧ (i 0).val < win0_1.index ⟨(i 0).val / 1024, hq⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, hq⟩ (1 : Fin 2) * 12 ≤ (i 1).val
      ∧ (i 1).val < win0_1.index ⟨(i 0).val / 1024, hq⟩ (1 : Fin 2) * 12 + 12
    rw [e3]; omega

/-- THE RESULT ARRAY after the run is `G` of the argument array. -/
theorem final (c : Dev nD) : (dats m 0 c).arrAt 1 cfg0.N = G (V m c main_arg0) :=
  (dats m 0 c).arrAt_eq_of_cover 1 (G (V m c main_arg0)) (fun t _ => flushed_eq m c t) cover

/-- The run, read: the result array ends at `G` of the argument array, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Hand

end
-- ==== Proof.RefRead.lean ====
/-
  What the reference's result array holds: the multiplied-out rotation product minus the identity, beside the
  translation — and, for real entries, the closed form.

  The reference takes the sines and cosines of the three angle columns, assembles from them (and from constant columns
  of ones and zeros) the three batches of elementary rotation matrices, contracts the second with the first and the
  result with the third — two sums over an index of three values, which together are the product (X · Y) · Z —,
  subtracts an identity matrix built by comparing a row counter with a column counter, sets the translation columns
  beside the 3 × 3 block as a fourth column, and reads the 3 × 4 blocks row after row as twelve numbers.
  Read at an index (b, 4 r + l): for l < 3 the double sum's entry (r, l) minus the identity's, and for l = 3 the `r`-th
  translation entry. When the angles are real numbers the rotation law turns the first into the closed form's polynomial.
-/
import proofs.«115544_j73392401154579_2_alg».proof.Proof.Gen.ReferenceIdeal.Read
import proofs.«115544_j73392401154579_2_alg».proof.Proof.Rotation
import proofs.«115544_j73392401154579_2_alg».proof.Proof.Stack

noncomputable section

namespace Cert.ReferenceIdeal.Hand

open Cert.ReferenceIdeal Cert.ReferenceIdeal.Gen Cert.ReferenceIdeal.Read Cert.Rotation Cert.Stack
open Idealize.ShloMosaic Idealize.ShloMosaic.ValueIdx

variable (x0 : (⟨S4194304x6, .f32⟩ : BufTy).Contents (Elt Ideal))

/-! ## The columns, one number per row -/

/-- The first angle of row `b`: column 3 of the argument, sliced out and its unit axis dropped. -/
theorem angle1 (b : Fin 4194304) : val_main_v2 (F := Ideal) x0 (ix1 b) = x0 (ix2 b (3 : Fin 6)) := by
  rw [val_main_v2_apply, val_main_v1_apply]
  refine congrArg x0 (funext fun a => Fin.ext ?_)
  match a with
  | ⟨0, _⟩ => show b.val / 1 = b.val; omega
  | ⟨1, _⟩ => rfl
/-- The second angle of row `b`: column 4. -/
theorem angle2 (b : Fin 4194304) : val_main_v4 (F := Ideal) x0 (ix1 b) = x0 (ix2 b (4 : Fin 6)) := by
  rw [val_main_v4_apply, val_main_v3_apply]
  refine congrArg x0 (funext fun a => Fin.ext ?_)
  match a with
  | ⟨0, _⟩ => show b.val / 1 = b.val; omega
  | ⟨1, _⟩ => rfl
/-- The third angle of row `b`: column 5. -/
theorem angle3 (b : Fin 4194304) : val_main_v6 (F := Ideal) x0 (ix1 b) = x0 (ix2 b (5 : Fin 6)) := by
  rw [val_main_v6_apply, val_main_v5_apply]
  refine congrArg x0 (funext fun a => Fin.ext ?_)
  match a with
  | ⟨0, _⟩ => show b.val / 1 = b.val; omega
  | ⟨1, _⟩ => rfl

theorem cos1 (b : Fin 4194304) : val_main_v7 (F := Ideal) x0 (ix1 b) = Ideal.cos (x0 (ix2 b (3 : Fin 6))) := by
  simp only [val_main_v7_apply, angle1, Ideal.hostUnary_cos_def]
theorem sin1 (b : Fin 4194304) : val_main_v8 (F := Ideal) x0 (ix1 b) = Ideal.sin (x0 (ix2 b (3 : Fin 6))) := by
  simp only [val_main_v8_apply, angle1, Ideal.hostUnary_sin_def]
theorem cos2 (b : Fin 4194304) : val_main_v9 (F := Ideal) x0 (ix1 b) = Ideal.cos (x0 (ix2 b (4 : Fin 6))) := by
  simp only [val_main_v9_apply, angle2, Ideal.hostUnary_cos_def]
theorem sin2 (b : Fin 4194304) : val_main_v10 (F := Ideal) x0 (ix1 b) = Ideal.sin (x0 (ix2 b (4 : Fin 6))) := by
  simp only [val_main_v10_apply, angle2, Ideal.hostUnary_sin_def]
theorem cos3 (b : Fin 4194304) : val_main_v11 (F := Ideal) x0 (ix1 b) = Ideal.cos (x0 (ix2 b (5 : Fin 6))) := by
  simp only [val_main_v11_apply, angle3, Ideal.hostUnary_cos_def]
theorem sin3 (b : Fin 4194304) : val_main_v12 (F := Ideal) x0 (ix1 b) = Ideal.sin (x0 (ix2 b (5 : Fin 6))) := by
  simp only [val_main_v12_apply, angle3, Ideal.hostUnary_sin_def]

/-- The negated sines. -/
theorem nsin1 (b : Fin 4194304) : val_main_v19 (F := Ideal) x0 (ix1 b) = -(Ideal.sin (x0 (ix2 b (3 : Fin 6)))) := by
  simp only [val_main_v19_apply, sin1, Ideal.hostNegf_def, Ideal.negf_def]
theorem nsin2 (b : Fin 4194304) : val_main_v40 (F := Ideal) x0 (ix1 b) = -(Ideal.sin (x0 (ix2 b (4 : Fin 6)))) := by
  simp only [val_main_v40_apply, sin2, Ideal.hostNegf_def, Ideal.negf_def]
theorem nsin3 (b : Fin 4194304) : val_main_v49 (F := Ideal) x0 (ix1 b) = -(Ideal.sin (x0 (ix2 b (5 : Fin 6)))) := by
  simp only [val_main_v49_apply, sin3, Ideal.hostNegf_def, Ideal.negf_def]

/-- The constant columns. -/
theorem ones (b : Fin 4194304) : val_main_v13 (F := Ideal) (ix1 b) = one :=
  (val_main_v13_apply (F := Ideal) (ix1 b)).trans (val_main_cst_apply (F := Ideal) _)
theorem zeros (b : Fin 4194304) : val_main_v14 (F := Ideal) (ix1 b) = zero :=
  (val_main_v14_apply (F := Ideal) (ix1 b)).trans (val_main_cst_0_apply (F := Ideal) _)

/-! ## The three batches of matrices -/

/-- The first batch at (b, r, j): the rotation about the first axis by row `b`'s first angle. -/
theorem X_apply (b : Fin 4194304) (r j : Fin 3) :
    val_main_v31 (F := Ideal) x0 (ix3 b r j) = rotX (x0 (ix2 b (3 : Fin 6))) r j := by
  have e : val_main_v31 (F := Ideal) x0 = stack (α := EReal) bcast_S4194304_S4194304x1_0 concatenates_S4194304x1_S4194304x1_S4194304x1_S4194304x3_d1 bcast_S4194304x3_S4194304x1x3_0_2 concatenates_S4194304x1x3_S4194304x1x3_S4194304x1x3_S4194304x3x3_d1
      (val_main_v13 (F := Ideal)) (val_main_v14 (F := Ideal)) (val_main_v14 (F := Ideal)) (val_main_v14 (F := Ideal)) (val_main_v7 x0) (val_main_v19 x0)
      (val_main_v14 (F := Ideal)) (val_main_v8 x0) (val_main_v7 x0) := rfl
  rw [e, stack_apply]
  simp only [ones, zeros, cos1, sin1, nsin1, rotX]

/-- The second batch at (b, r, j): the rotation about the second axis by row `b`'s second angle. -/
theorem Y_apply (b : Fin 4194304) (r j : Fin 3) :
    val_main_v48 (F := Ideal) x0 (ix3 b r j) = rotY (x0 (ix2 b (4 : Fin 6))) r j := by
  have e : val_main_v48 (F := Ideal) x0 = stack (α := EReal) bcast_S4194304_S4194304x1_0 concatenates_S4194304x1_S4194304x1_S4194304x1_S4194304x3_d1 bcast_S4194304x3_S4194304x1x3_0_2 concatenates_S4194304x1x3_S4194304x1x3_S4194304x1x3_S4194304x3x3_d1
      (val_main_v9 x0) (val_main_v14 (F := Ideal)) (val_main_v10 x0) (val_main_v14 (F := Ideal)) (val_main_v13 (F := Ideal)) (val_main_v14 (F := Ideal))
      (val_main_v40 x0) (val_main_v14 (F := Ideal)) (val_main_v9 x0) := rfl
  rw [e, stack_apply]
  simp only [ones, zeros, cos2, sin2, nsin2, rotY]

/-- The third batch at (b, r, j): the rotation about the third axis by row `b`'s third angle. -/
theorem Z_apply (b : Fin 4194304) (r j : Fin 3) :
    val_main_v65 (F := Ideal) x0 (ix3 b r j) = rotZ (x0 (ix2 b (5 : Fin 6))) r j := by
  have e : val_main_v65 (F := Ideal) x0 = stack (α := EReal) bcast_S4194304_S4194304x1_0 concatenates_S4194304x1_S4194304x1_S4194304x1_S4194304x3_d1 bcast_S4194304x3_S4194304x1x3_0_2 concatenates_S4194304x1x3_S4194304x1x3_S4194304x1x3_S4194304x3x3_d1
      (val_main_v11 x0) (val_main_v49 x0) (val_main_v14 (F := Ideal)) (val_main_v12 x0) (val_main_v11 x0) (val_main_v14 (F := Ideal))
      (val_main_v14 (F := Ideal)) (val_main_v14 (F := Ideal)) (val_main_v13 (F := Ideal)) := rfl
  rw [e, stack_apply]
  simp only [ones, zeros, cos3, sin3, nsin3, rotZ]

/-! ## The two contractions -/

/-- The first contraction at (b, p, q): entry (q, p) of X · Y, the second batch's factor written first. -/
theorem XY_apply (b : Fin 4194304) (p q : Fin 3) :
    val_main_v66 (F := Ideal) x0 (ix3 b p q)
      = ∑ k : Fin 3, rotY (x0 (ix2 b (4 : Fin 6))) k p * rotX (x0 (ix2 b (3 : Fin 6))) q k := by
  rw [val_main_v66_apply]
  refine Finset.sum_congr rfl fun k _ => ?_
  rw [show lidx_main_v66 (ix3 b p q) k = ix3 b k p from funext (fun a => by match a with | ⟨0, _⟩ => rfl | ⟨1, _⟩ => rfl | ⟨2, _⟩ => rfl),
    show ridx_main_v66 (ix3 b p q) k = ix3 b q k from funext (fun a => by match a with | ⟨0, _⟩ => rfl | ⟨1, _⟩ => rfl | ⟨2, _⟩ => rfl), Y_apply, X_apply]

/-- The second contraction at (b, r, l): entry (r, l) of (X · Y) · Z. -/
theorem XYZ_apply (b : Fin 4194304) (r l : Fin 3) :
    val_main_v67 (F := Ideal) x0 (ix3 b r l)
      = ∑ k : Fin 3, (∑ j : Fin 3, rotY (x0 (ix2 b (4 : Fin 6))) j k * rotX (x0 (ix2 b (3 : Fin 6))) r j)
          * rotZ (x0 (ix2 b (5 : Fin 6))) k l := by
  rw [val_main_v67_apply]
  refine Finset.sum_congr rfl fun k _ => ?_
  rw [show lidx_main_v67 (ix3 b r l) k = ix3 b k r from funext (fun a => by match a with | ⟨0, _⟩ => rfl | ⟨1, _⟩ => rfl | ⟨2, _⟩ => rfl),
    show ridx_main_v67 (ix3 b r l) k = ix3 b k l from funext (fun a => by match a with | ⟨0, _⟩ => rfl | ⟨1, _⟩ => rfl | ⟨2, _⟩ => rfl), XY_apply, Z_apply]

/-! ## The identity -/

/-- A row counter compared with a column counter: the one-bit word 1 on the diagonal, 0 off it. -/
theorem eye_bit (r l : Fin 3) :
    IntOp.cmpi .eq (IntOp.addi (BitVec.ofNat 32 r.val) 0#32) (BitVec.ofNat 32 l.val)
      = mat9 (1#1) 0#1 0#1 0#1 1#1 0#1 0#1 0#1 1#1 r l := by
  fin_cases r <;> fin_cases l <;> decide

/-- The one-bit words 1 and 0 convert to the numbers one and zero. -/
theorem of_one : FloatOps.uitofp (F := Ideal) .f32 (1#1 : BitVec 1) = (1 : EReal) := by
  show (((1#1 : BitVec 1).toNat : ℝ) : EReal) = 1; simp
theorem of_zero : FloatOps.uitofp (F := Ideal) .f32 (0#1 : BitVec 1) = (0 : EReal) := by
  show (((0#1 : BitVec 1).toNat : ℝ) : EReal) = 0; simp

/-- The subtracted batch at (b, r, l) is the identity's entry (r, l), whatever `b`. -/
theorem eye_apply (b : Fin 4194304) (r l : Fin 3) : val_main_v75 (F := Ideal) (ix3 b r l) = delta r l := by
  rw [val_main_v75_apply, val_main_v74_apply, val_main_v73_apply, val_main_v72_apply, val_main_v71_apply,
    val_main_v70_apply, val_main_c_apply, val_main_v68_apply, val_main_v69_apply]
  show FloatOps.uitofp (F := Ideal) .f32
    (IntOp.cmpi .eq (IntOp.addi (BitVec.ofNat 32 r.val) 0#32) (BitVec.ofNat 32 l.val)) = delta r l
  rw [eye_bit]
  fin_cases r <;> fin_cases l <;> simp only [mat9, delta, of_one, of_zero]

/-! ## The result, index by index -/

/-- Twelve numbers per row read as three rows of four: position 4 r + l of row `b` is entry (b, r, l). -/
theorem split12 (b : Fin 4194304) (r : Fin 3) (l : Fin 4) : idx_main_v79 (ix2 b (at34 r l)) = ix3 b r l := by
  have hr := r.isLt
  have hl := l.isLt
  funext a; apply Fin.ext
  match a with
  | ⟨0, _⟩ => show (b.val * 12 + (4 * r.val + l.val)) / 12 = b.val; omega
  | ⟨1, _⟩ => show (b.val * 12 + (4 * r.val + l.val)) / 4 % 3 = r.val; omega
  | ⟨2, _⟩ => show (b.val * 12 + (4 * r.val + l.val)) % 4 = l.val; omega

/-- The first three of each four: the multiplied-out product minus the identity. -/
theorem ref_rotation (b : Fin 4194304) (r l : Fin 3) :
    val_main_v79 (F := Ideal) x0 (ix2 b (at34 r ⟨l.val, by have := l.isLt; omega⟩))
      = product (x0 (ix2 b (3 : Fin 6))) (x0 (ix2 b (4 : Fin 6))) (x0 (ix2 b (5 : Fin 6))) r l := by
  rw [val_main_v79_apply, split12]
  unfold val_main_v78
  refine (concatenate_pair_apply_left (t := S4194304x3x4) (s₁ := S4194304x3x3) (s₂ := S4194304x3x1) (2 : Fin 3) _ _ _ (ix3 b r (⟨l.val, by have := l.isLt; omega⟩ : Fin 4)) rfl
    (ix3 b r l) (fun a => by match a with | ⟨0, _⟩ => rfl | ⟨1, _⟩ => rfl | ⟨2, _⟩ => rfl)).trans ?_
  rw [val_main_v76_apply, XYZ_apply, eye_apply]
  rfl

/-- The fourth of each four: the translation. -/
theorem ref_translation (b : Fin 4194304) (r : Fin 3) :
    val_main_v79 (F := Ideal) x0 (ix2 b (at34 r (3 : Fin 4)))
      = x0 (ix2 b (⟨r.val, by have := r.isLt; omega⟩ : Fin 6)) := by
  rw [val_main_v79_apply, split12]
  unfold val_main_v78
  refine (concatenate_pair_apply_right (t := S4194304x3x4) (s₁ := S4194304x3x3) (s₂ := S4194304x3x1) (2 : Fin 3) _ _ _ (ix3 b r (3 : Fin 4)) rfl rfl (ix3 b r (0 : Fin 1))
    (fun a ha => by match a with | ⟨0, _⟩ => rfl | ⟨1, _⟩ => rfl | ⟨2, _⟩ => exact absurd rfl ha) rfl).trans ?_
  rw [val_main_v77_apply, val_main_v0_apply]
  refine congrArg x0 (funext fun a => Fin.ext ?_)
  match a with
  | ⟨0, _⟩ => rfl
  | ⟨1, _⟩ => rfl

/-- THE REFERENCE IS `G` when every entry of the argument is a real number: position by position, the translation
    columns agree as they stand, and the rotation columns by the law between the multiplied-out product and the
    closed form, which holds for real angles. -/
theorem ref_eq_G (hreal : ∀ i, ∃ v : ℝ, x0 i = (v : EReal)) : val_main_v79 (F := Ideal) x0 = G x0 := by
  funext i
  obtain ⟨b, n, rfl⟩ : ∃ (b : Fin 4194304) (n : Fin 12), i = ix2 b n := ⟨i 0, i 1, eq_ix2 i⟩
  have hn := n.isLt
  obtain ⟨r, l4, rfl⟩ : ∃ (r : Fin 3) (l4 : Fin 4), n = at34 r l4 :=
    ⟨⟨n.val / 4, by omega⟩, ⟨n.val % 4, by omega⟩, Fin.ext (by show n.val = 4 * (n.val / 4) + n.val % 4; omega)⟩
  rw [G_apply]
  obtain ⟨l, hl⟩ := l4
  by_cases h3 : l = 3
  · subst h3
    rw [show (⟨3, hl⟩ : Fin 4) = (3 : Fin 4) from rfl, ref_translation]
    fin_cases r <;> rfl
  · have hl3 : l < 3 := by omega
    obtain ⟨a3, e3⟩ := hreal (ix2 b (3 : Fin 6))
    obtain ⟨a4, e4⟩ := hreal (ix2 b (4 : Fin 6))
    obtain ⟨a5, e5⟩ := hreal (ix2 b (5 : Fin 6))
    rw [show (⟨l, hl⟩ : Fin 4) = ⟨(⟨l, hl3⟩ : Fin 3).val, hl⟩ from rfl, ref_rotation, e3, e4, e5,
      product_eq_closed (x0 (ix2 b (0 : Fin 6))) (x0 (ix2 b (1 : Fin 6))) (x0 (ix2 b (2 : Fin 6))) a3 a4 a5 r ⟨l, hl3⟩]

end Cert.ReferenceIdeal.Hand

end
-- ==== Proof.lean ====
/-
  The certificate: a kernel that writes, for each of 4 194 304 rows (tx, ty, tz, ax, ay, az), the twelve numbers
  of the 3 × 4 block [R - 1 | t] — R the product of the rotations about the three axes by ax, ay, az, t the
  translation — computes on the extended reals what the reference computes that builds the three rotation matrices,
  multiplies them out and subtracts the identity.

  The kernel's side (Proof/KernelValue.lean): each grid point writes, from its 1024 rows, the closed form — nine
  polynomials in the sines and cosines beside the three translations — and the 4096 blocks cover the result array.
  The reference's side (Proof/RefRead.lean, over Proof/Stack.lean): its result read index by index is the double sum
  of the two contractions minus the identity, beside the translation. The two meet in Proof/Rotation.lean: for real
  angles the double sum is the polynomial. That is where the precondition enters (Proof/Finite.lean): it makes every
  entry of the argument a real number, and the sine and cosine of a real number are real, so every product and sum
  in sight is one of real numbers; at an infinite angle the two sides are not claimed to agree.

  Both programs, and the kernel read at the word level, run to the end from any memory and leave the argument as it
  was; the idealized kernel is the printed kernel read on the extended reals with no rewrite applied, so there is
  nothing to preserve.
-/
import proofs.«115544_j73392401154579_2_alg».proof.Defs
import proofs.«115544_j73392401154579_2_alg».proof.Proof.Gen.Kernel
import proofs.«115544_j73392401154579_2_alg».proof.Proof.Gen.Kernel.Skeleton
import proofs.«115544_j73392401154579_2_alg».proof.Proof.Gen.Kernel.Launch
import proofs.«115544_j73392401154579_2_alg».proof.Proof.Gen.Kernel.Points
import proofs.«115544_j73392401154579_2_alg».proof.Proof.Gen.Kernel.Frame
import proofs.«115544_j73392401154579_2_alg».proof.Proof.Gen.KernelIdeal
import proofs.«115544_j73392401154579_2_alg».proof.Proof.Gen.KernelIdeal.Skeleton
import proofs.«115544_j73392401154579_2_alg».proof.Proof.Gen.KernelIdeal.Launch
import proofs.«115544_j73392401154579_2_alg».proof.Proof.Gen.KernelIdeal.Points
import proofs.«115544_j73392401154579_2_alg».proof.Proof.Gen.KernelIdeal.Frame
import proofs.«115544_j73392401154579_2_alg».proof.Proof.Gen.ReferenceIdeal
import proofs.«115544_j73392401154579_2_alg».proof.Proof.Gen.Pre_finite_inputs
import proofs.«115544_j73392401154579_2_alg».proof.Proof.Gen.KernelIdeal.Value
import proofs.«115544_j73392401154579_2_alg».proof.Proof.Gen.ReferenceIdeal.Run
import proofs.«115544_j73392401154579_2_alg».proof.Proof.Gen.ReferenceIdeal.Read
import proofs.«115544_j73392401154579_2_alg».proof.Proof.Rotation
import proofs.«115544_j73392401154579_2_alg».proof.Proof.Stack
import proofs.«115544_j73392401154579_2_alg».proof.Proof.Finite
import proofs.«115544_j73392401154579_2_alg».proof.Proof.KernelValue
import proofs.«115544_j73392401154579_2_alg».proof.Proof.RefRead
import Idealize.ShloMosaic.Adequacy
import Idealize.ShloMosaic.Init

noncomputable section

namespace Cert.Proof

open Idealize.ShloMosaic Idealize.SL.Sem

/-- The kernel, read at the word level, runs to the end and leaves the argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the argument, whose entries the precondition makes real numbers, the kernel's result
    array ends at the closed form of the argument (its blocks cover the array) and the reference's at the
    multiplied-out product minus the identity beside the translation, which for real entries is the closed form. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, hagree c]
  exact Cert.ReferenceIdeal.Hand.ref_eq_G _ (Cert.Finite.real_of_pre _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
